-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S262144x256 .f32) (main_arg1 : FVec F S256x256 .f32) (main_arg2 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S256 : Shape := ⟨1, ![256]⟩
abbrev S_ : Shape := ⟨0, ![]⟩
abbrev S256x1 : Shape := ⟨2, ![256, 1]⟩
abbrev S4096x256 : Shape := ⟨2, ![4096, 256]⟩
abbrev S4096 : Shape := ⟨1, ![4096]⟩
abbrev S4096x1 : Shape := ⟨2, ![4096, 1]⟩
abbrev S1x256 : Shape := ⟨2, ![1, 256]⟩

abbrev nBuf : Space → Nat
  | .hbm => 20
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x256, .f32⟩
  | .hbm, ⟨17, _⟩ => ⟨S256x256, .f32⟩
  | .hbm, ⟨18, _⟩ => ⟨S256x256, .bf16⟩
  | .hbm, ⟨19, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S256, .f32⟩
  | .local _ .vmem, ⟨4, _⟩ => ⟨S4096x256, .f32⟩
  | .local _ .vmem, ⟨5, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S256 : Shape := ⟨1, ![256]⟩
abbrev S_ : Shape := ⟨0, ![]⟩
abbrev S256x1 : Shape := ⟨2, ![256, 1]⟩
abbrev S262144 : Shape := ⟨1, ![262144]⟩
abbrev S262144x1 : Shape := ⟨2, ![262144, 1]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S_, .f32⟩
  | .hbm, ⟨15, _⟩ => ⟨S262144x1, .f32⟩
  | .hbm, ⟨16, _⟩ => ⟨S262144x1, .f32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S_, .f32⟩
  | .hbm, ⟨21, _⟩ => ⟨S262144, .f32⟩
  | .hbm, ⟨22, _⟩ => ⟨S262144x1, .f32⟩
  | .hbm, ⟨23, _⟩ => ⟨S262144x1, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S262144x256, .f32⟩
  | .hbm, ⟨29, _⟩ => ⟨S1x256, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S_, .f32⟩
  | .hbm, ⟨35, _⟩ => ⟨S_, .f32⟩
  | .hbm, ⟨36, _⟩ => ⟨S262144x256, .f32⟩
  | .hbm, ⟨37, _⟩ => ⟨S262144x256, .f32⟩
  | .hbm, ⟨38, _⟩ => ⟨S1x256, .f32⟩
  | .hbm, ⟨39, _⟩ => ⟨S262144x256, .f32⟩
  | .hbm, ⟨40, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  reducesTo_S262144x256_S262144_d1 : S262144x256.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.Finite.lean ====
/-
  What the precondition says: every entry of the first two argument arrays is a real number.

  The precondition is the conjunction of three tests, one per array, each "every entry's absolute value is below +∞".
  On the extended reals the pattern 0x7F800000 denotes +∞, the absolute value of x is max x (−x), and max x (−x) < +∞
  excludes exactly x = +∞ and x = −∞.
-/
import proofs.«128889_j29291676959209_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Finite

open Idealize.ShloMosaic Cert.Pre_finite_inputs

/-- The pattern of the comparison's right-hand side denotes +∞. -/
theorem pattern_top : Ideal.ofBits .f32 0x7F800000#32 = ⊤ := by
  simp [Ideal.ofBits, Ideal.ieee]

/-- An extended real whose absolute value is below +∞ is a real number. -/
theorem real_of_abs_lt_top (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

instance : Subsingleton S_.Idx := ⟨fun a b => funext fun d => d.elim0⟩

/-- One array's test read at an entry. -/
theorem real_of_test {s : Shape} (hb : S_.BroadcastsInDim s (![] : Fin 0 → Fin s.rank)) (A : FVec Ideal s .f32) (i : s.Idx)
    (h : cmpf .olt (Host.absf A) (broadcastInDim s ![] hb (constant (F := Ideal) S_ .f32 0x7F800000#32)) i = 1#1) :
    ∃ r : ℝ, A i = r := by
  have e : broadcastInDim s ![] hb (constant (F := Ideal) S_ .f32 0x7F800000#32) i = Ideal.ofBits .f32 0x7F800000#32 :=
    broadcastInDim_apply _ hb _ i ValueIdx.ix0 (fun a => a.elim0)
  have h' : Ideal.cmp .olt (max (A i) (-(A i))) (broadcastInDim s ![] hb (constant (F := Ideal) S_ .f32 0x7F800000#32) i) = 1#1 := h
  rw [e, pattern_top] at h'
  exact real_of_abs_lt_top _ h'

/-- Under the precondition every entry of the first and of the second array is a real number. -/
theorem entries_real [Facts] (X : FVec Ideal S262144x256 .f32) (W : FVec Ideal S256x256 .f32) (B : FVec Ideal S256 .f32)
    (h : fn (F := Ideal) X W B = fun _ => 1#1) :
    (∀ i, ∃ r : ℝ, X i = r) ∧ (∀ i, ∃ r : ℝ, W i = r) := by
  have h0 := congrFun h ValueIdx.ix0
  dsimp only [fn] at h0
  obtain ⟨h1, _⟩ := IntOp.andi_eq_one.mp h0
  obtain ⟨hx, hw⟩ := IntOp.andi_eq_one.mp h1
  exact ⟨fun i => real_of_test _ X i (Host.reduce_andi_all _ _ _ _ _ hx i),
    fun i => real_of_test _ W i (Host.reduce_andi_all _ _ _ _ _ hw i)⟩

end Cert.Finite

end
-- ==== Proof.CorrLaw.lean ====
/-
  The mathematics that joins the two programs, on the extended reals.

  For two real vectors R and S of one length, write |R|² for the sum of the squares of R's entries.  One program
  scales each vector by the reciprocal square root of its squared length first and then takes the inner product,
    Σ_k (R_k · |R|⁻¹) · (S_k · |S|⁻¹),
  and bounds the result below by a constant eps ≥ 0; the other takes the inner product first and divides it by the
  product of the two lengths,
    (Σ_k R_k · S_k) / (|R| · |S|),
  and bounds that below by eps.  Where both lengths are positive these are one real number.  Where a length is zero
  the vector is zero: the first form is a sum of zeros (0 · ∞ = 0 on the extended reals), so its bounded value is
  eps; the second is 0 / 0, which reads as −∞, and its bounded value is eps again.  So the two bounded values agree
  for all real vectors.  Also here: centring a row (subtracting the row's sum divided by a nonzero real constant)
  keeps real entries real.
-/
import Idealize.ShloMosaic.PureOps.Ideal

noncomputable section

open scoped BigOperators

namespace Cert.Corr

open Idealize.ShloMosaic

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the squares of a vector's entries. -/
def sumSq {n : ℕ} (R : Fin n → EReal) : EReal := ∑ j, R j * R j

/-- Scale each vector by the reciprocal square root of its squared length, take the inner product, bound below by `eps`. -/
def scaledThenDot {n : ℕ} (eps : EReal) (R S : Fin n → EReal) : EReal :=
  max (∑ k, (R k * Ideal.rsqrt (sumSq R)) * (S k * Ideal.rsqrt (sumSq S))) eps

/-- Take the inner product, divide by the product of the two lengths, bound below by `eps`. -/
def dotThenDivided {n : ℕ} (eps : EReal) (R S : Fin n → EReal) : EReal :=
  max eps (Ideal.div (∑ k, R k * S k) (Ideal.sqrt (sumSq R) * Ideal.sqrt (sumSq S)))

theorem sumSq_coe {n : ℕ} (c : Fin n → ℝ) : sumSq (fun k => (c k : EReal)) = ((∑ j, c j * c j : ℝ) : EReal) := by
  unfold sumSq
  rw [coe_sum]
  exact Finset.sum_congr rfl fun j _ => (EReal.coe_mul _ _).symm

/-- A real vector whose squares sum to zero is zero. -/
theorem eq_zero_of_sumSq_zero {n : ℕ} (c : Fin n → ℝ) (h : ∑ j, c j * c j = 0) (k : Fin n) : c k = 0 :=
  mul_self_eq_zero.mp
    ((Finset.sum_eq_zero_iff_of_nonneg fun j _ => mul_self_nonneg (c j)).mp h k (Finset.mem_univ k))

/-- The two bounded correlations agree on real vectors. -/
theorem scaledThenDot_eq_dotThenDivided {n : ℕ} (eps : EReal) (heps : 0 ≤ eps) (R S : Fin n → EReal)
    (hR : ∀ k, ∃ r : ℝ, R k = r) (hS : ∀ k, ∃ r : ℝ, S k = r) :
    scaledThenDot eps R S = dotThenDivided eps R S := by
  choose a ha using hR
  choose b hb using hS
  obtain rfl : R = fun k => (a k : EReal) := funext ha
  obtain rfl : S = fun k => (b k : EReal) := funext hb
  unfold scaledThenDot dotThenDivided
  rw [sumSq_coe a, sumSq_coe b]
  have hsa : 0 ≤ ∑ j, a j * a j := Finset.sum_nonneg fun j _ => mul_self_nonneg _
  have hsb : 0 ≤ ∑ j, b j * b j := Finset.sum_nonneg fun j _ => mul_self_nonneg _
  generalize hA : ∑ j, a j * a j = sa at hsa
  generalize hB : ∑ j, b j * b j = sb at hsb
  by_cases ha0 : sa = 0
  · -- the first vector is zero
    subst ha0
    have haz : ∀ k, a k = 0 := eq_zero_of_sumSq_zero a hA
    have hl : ∑ k, ((a k : EReal) * Ideal.rsqrt ((0 : ℝ) : EReal)) * ((b k : EReal) * Ideal.rsqrt (sb : EReal)) = 0 :=
      Finset.sum_eq_zero fun k _ => by rw [haz k, EReal.coe_zero, zero_mul, zero_mul]
    have hr : ∑ k, (a k : EReal) * (b k : EReal) = 0 :=
      Finset.sum_eq_zero fun k _ => by rw [haz k, EReal.coe_zero, zero_mul]
    rw [hl, hr, Ideal.sqrt_coe, if_neg (lt_irrefl 0), Real.sqrt_zero, EReal.coe_zero, zero_mul, Ideal.div, if_pos rfl,
      if_neg (lt_irrefl 0), max_eq_right heps, max_eq_left bot_le]
  by_cases hb0 : sb = 0
  · -- the second vector is zero
    subst hb0
    have hbz : ∀ k, b k = 0 := eq_zero_of_sumSq_zero b hB
    have hl : ∑ k, ((a k : EReal) * Ideal.rsqrt (sa : EReal)) * ((b k : EReal) * Ideal.rsqrt ((0 : ℝ) : EReal)) = 0 :=
      Finset.sum_eq_zero fun k _ => by rw [hbz k, EReal.coe_zero, zero_mul, mul_zero]
    have hr : ∑ k, (a k : EReal) * (b k : EReal) = 0 :=
      Finset.sum_eq_zero fun k _ => by rw [hbz k, EReal.coe_zero, mul_zero]
    rw [hl, hr, Ideal.sqrt_coe (r := (0 : ℝ)), if_neg (lt_irrefl 0), Real.sqrt_zero, EReal.coe_zero, mul_zero, Ideal.div,
      if_pos rfl, if_neg (lt_irrefl 0), max_eq_right heps, max_eq_left bot_le]
  · -- both lengths are positive: one real number
    have hpa : 0 < sa := lt_of_le_of_ne hsa (Ne.symm ha0)
    have hpb : 0 < sb := lt_of_le_of_ne hsb (Ne.symm hb0)
    have hqa : Real.sqrt sa ≠ 0 := (Real.sqrt_pos.mpr hpa).ne'
    have hqb : Real.sqrt sb ≠ 0 := (Real.sqrt_pos.mpr hpb).ne'
    rw [Ideal.rsqrt_coe, if_neg (not_lt.mpr hsa), if_neg ha0, Ideal.rsqrt_coe, if_neg (not_lt.mpr hsb), if_neg hb0,
      Ideal.sqrt_coe, if_neg (not_lt.mpr hsa), Ideal.sqrt_coe, if_neg (not_lt.mpr hsb), ← EReal.coe_mul,
      Ideal.div_coe (mul_ne_zero hqa hqb)]
    have hl : ∑ k, ((a k : EReal) * (((Real.sqrt sa)⁻¹ : ℝ) : EReal)) * ((b k : EReal) * (((Real.sqrt sb)⁻¹ : ℝ) : EReal))
        = ((∑ k, (a k * (Real.sqrt sa)⁻¹) * (b k * (Real.sqrt sb)⁻¹) : ℝ) : EReal) := by
      rw [coe_sum]
      exact Finset.sum_congr rfl fun k _ => by rw [EReal.coe_mul, EReal.coe_mul, EReal.coe_mul]
    have hr : ∑ k, (a k : EReal) * (b k : EReal) = ((∑ k, a k * b k : ℝ) : EReal) := by
      rw [coe_sum]
      exact Finset.sum_congr rfl fun k _ => by rw [EReal.coe_mul]
    rw [hl, hr, ← EReal.coe_mul, max_comm]
    refine congrArg (fun x : ℝ => max eps (x : EReal)) ?_
    rw [Finset.sum_mul]
    refine Finset.sum_congr rfl fun k _ => ?_
    field_simp

/-- A row with its mean removed: each entry minus the row's sum divided by the constant `c`. -/
def centred {a n : ℕ} (c : EReal) (A : Fin a → Fin n → EReal) (p : Fin a) (k : Fin n) : EReal :=
  A p k - Ideal.div (∑ j, A p j) c

/-- Centring keeps real entries real, when the divisor is a nonzero real. -/
theorem centred_real {a n : ℕ} (c : EReal) (hc : ∃ y : ℝ, y ≠ 0 ∧ c = y) (A : Fin a → Fin n → EReal) (p : Fin a)
    (hA : ∀ j, ∃ r : ℝ, A p j = r) (k : Fin n) : ∃ r : ℝ, centred c A p k = r := by
  obtain ⟨y, hy, rfl⟩ := hc
  choose f hf using hA
  refine ⟨f k - (∑ j, f j) * (1 / y), ?_⟩
  unfold centred
  rw [Ideal.div_coe hy, show (∑ j, A p j) = ((∑ j, f j : ℝ) : EReal) from by
    rw [coe_sum]; exact Finset.sum_congr rfl fun j _ => hf j, hf k, ← EReal.coe_mul, ← EReal.coe_sub]

end Cert.Corr

end
-- ==== Proof.Spec.lean ====
/-
  The result both programs compute, as one function of the three argument arrays.

  Write x̄_p for row p of the first array with its mean removed, and w̄_o for row o of the second array with its mean
  removed (the mean is the row's sum divided by 256).  Entry (p, o) of the result is

      max ( Σ_k (x̄_p,k · |x̄_p|⁻¹) · (w̄_o,k · |w̄_o|⁻¹) , ε )  +  bias_o ,

  the correlation of the two centred rows bounded below by the constant ε = f32(1e-10), plus the bias of column o.
-/
import proofs.«128889_j29291676959209_2_alg».proof.Proof.CorrLaw
import Idealize.ShloMosaic.Lib.ValueIdx

noncomputable section

open scoped BigOperators

namespace Cert.Spec

open Idealize.ShloMosaic Idealize.ShloMosaic.ValueIdx Cert.Corr

/-- The divisor of the mean, the pattern of 256.0. -/
abbrev rowLen : EReal := Ideal.ofBits .f32 0x43800000#32

/-- The lower bound of the correlation, the pattern of f32(1e-10). -/
abbrev eps : EReal := Ideal.ofBits .f32 0x2EDBE6FF#32

/-- The pattern of 256.0 denotes the real number 256. -/
theorem rowLen_eq : rowLen = ((256 : ℝ) : EReal) := by
  simp [rowLen, Ideal.ofBits, Ideal.ieee, -EReal.coe_mul]; norm_num

theorem rowLen_real : ∃ y : ℝ, y ≠ 0 ∧ rowLen = y := ⟨256, by norm_num, rowLen_eq⟩

/-- The lower bound is not negative. -/
theorem eps_nonneg : 0 ≤ eps := by
  simp [eps, Ideal.ofBits, Ideal.ieee, -EReal.coe_mul]

/-- Row `p` of the first array, centred. -/
def xc (X : (⟨2, ![262144, 256]⟩ : Shape).Idx → EReal) (p : Fin 262144) (k : Fin 256) : EReal :=
  centred rowLen (fun p j => X (ix2 p j)) p k

/-- Row `o` of the second array, centred. -/
def wc (W : (⟨2, ![256, 256]⟩ : Shape).Idx → EReal) (o : Fin 256) (k : Fin 256) : EReal :=
  centred rowLen (fun o j => W (ix2 o j)) o k

/-- The result array. -/
def result (X : (⟨2, ![262144, 256]⟩ : Shape).Idx → EReal) (W : (⟨2, ![256, 256]⟩ : Shape).Idx → EReal)
    (B : (⟨1, ![256]⟩ : Shape).Idx → EReal) : (⟨2, ![262144, 256]⟩ : Shape).Idx → EReal :=
  fun i => scaledThenDot eps (xc X (i 0)) (wc W (i 1)) + B (ix1 (i 1))

theorem result_apply (X : (⟨2, ![262144, 256]⟩ : Shape).Idx → EReal) (W : (⟨2, ![256, 256]⟩ : Shape).Idx → EReal)
    (B : (⟨1, ![256]⟩ : Shape).Idx → EReal) (p : Fin 262144) (o : Fin 256) :
    result X W B (ix2 p o) = scaledThenDot eps (xc X p) (wc W o) + B (ix1 o) := rfl

theorem xc_real (X : (⟨2, ![262144, 256]⟩ : Shape).Idx → EReal) (hX : ∀ i, ∃ r : ℝ, X i = r) (p : Fin 262144) (k : Fin 256) :
    ∃ r : ℝ, xc X p k = r :=
  centred_real rowLen rowLen_real _ p (fun j => hX _) k

theorem wc_real (W : (⟨2, ![256, 256]⟩ : Shape).Idx → EReal) (hW : ∀ i, ∃ r : ℝ, W i = r) (o : Fin 256) (k : Fin 256) :
    ∃ r : ℝ, wc W o k = r :=
  centred_real rowLen rowLen_real _ o (fun j => hW _) k

/-- The same entry in the other arrangement (inner product first, then the division by the two lengths), for arrays of
    real numbers. -/
theorem result_apply_divided (X : (⟨2, ![262144, 256]⟩ : Shape).Idx → EReal) (W : (⟨2, ![256, 256]⟩ : Shape).Idx → EReal)
    (B : (⟨1, ![256]⟩ : Shape).Idx → EReal) (hX : ∀ i, ∃ r : ℝ, X i = r) (hW : ∀ i, ∃ r : ℝ, W i = r)
    (p : Fin 262144) (o : Fin 256) :
    result X W B (ix2 p o) = dotThenDivided eps (xc X p) (wc W o) + B (ix1 o) := by
  rw [result_apply, scaledThenDot_eq_dotThenDivided eps eps_nonneg _ _ (xc_real X hX p) (wc_real W hW o)]

end Cert.Spec

end
-- ==== Proof.RefValue.lean ====
/-
  The reference program's result, read entry by entry, is the result array of the specification in its second
  arrangement: the inner product of the two centred rows divided by the product of their lengths, bounded below by ε,
  plus the bias.  Each lemma reads one intermediate array of the reference at an entry.
-/
import proofs.«128889_j29291676959209_2_alg».proof.Proof.Gen.ReferenceIdeal.Read
import proofs.«128889_j29291676959209_2_alg».proof.Proof.Spec

noncomputable section

open scoped BigOperators

namespace Cert.RefValue

open Idealize.ShloMosaic Idealize.ShloMosaic.ValueIdx Cert.ReferenceIdeal Cert.ReferenceIdeal.Read Cert.Corr Cert.Spec

/-- The second array minus its row means, at (o, k): the centred row o at k. -/
theorem centred_w (W : (⟨S256x256, .f32⟩ : BufTy).Contents (Elt Ideal)) (o k : Fin 256) :
    val_main_v5 (F := Ideal) W (ix2 o k) = wc W o k := by
  have e : ∀ k', idx_main_v0 (idx_main_v1 (idx_main_v4 (ix2 o k))) k' = ix2 o k' := fun k' =>
    funext fun a => Fin.ext (by match a with | ⟨0, _⟩ => rfl | ⟨1, _⟩ => rfl)
  rw [val_main_v5_apply, val_main_v4_apply, val_main_v3_apply, val_main_v1_apply, val_main_v0_apply, val_main_v2_apply,
    val_main_cst_0_apply, val_main_cst_apply]
  simp only [Ideal.subf_def, Ideal.hostDivf_def, Ideal.ofBits_def, Ideal.ofBits_zero_f32, zero_add, e]
  rfl

/-- The first array minus its row means, at (p, k): the centred row p at k. -/
theorem centred_x (X : (⟨S262144x256, .f32⟩ : BufTy).Contents (Elt Ideal)) (p : Fin 262144) (k : Fin 256) :
    val_main_v11 (F := Ideal) X (ix2 p k) = xc X p k := by
  have e : ∀ k', idx_main_v6 (idx_main_v7 (idx_main_v10 (ix2 p k))) k' = ix2 p k' := fun k' =>
    funext fun a => Fin.ext (by match a with | ⟨0, _⟩ => rfl | ⟨1, _⟩ => rfl)
  rw [val_main_v11_apply, val_main_v10_apply, val_main_v9_apply, val_main_v7_apply, val_main_v6_apply, val_main_v8_apply,
    val_main_cst_2_apply, val_main_cst_1_apply]
  simp only [Ideal.subf_def, Ideal.hostDivf_def, Ideal.ofBits_def, Ideal.ofBits_zero_f32, zero_add, e]
  rfl

/-- The length of the centred row p of the first array. -/
theorem length_x (X : (⟨S262144x256, .f32⟩ : BufTy).Contents (Elt Ideal)) (j : S262144x1.Idx) (p : Fin 262144)
    (hj : j 0 = p) :
    val_main_v15 (F := Ideal) X j = Ideal.sqrt (sumSq (xc X p)) := by
  have e : ∀ k', idx_main_v13 (idx_main_v14 j) k' = ix2 p k' := fun k' =>
    funext fun a => Fin.ext (by match a with | ⟨0, _⟩ => exact congrArg Fin.val hj | ⟨1, _⟩ => rfl)
  rw [val_main_v15_apply, val_main_v14_apply, val_main_v13_apply, val_main_cst_3_apply]
  simp only [Ideal.hostUnary_sqrt_def, Ideal.ofBits_def, Ideal.ofBits_zero_f32, zero_add, e, val_main_v12_apply,
    Ideal.mulf_def, centred_x]
  rfl

/-- The length of the centred row o of the second array. -/
theorem length_w (W : (⟨S256x256, .f32⟩ : BufTy).Contents (Elt Ideal)) (o : Fin 256) :
    val_main_v18 (F := Ideal) W (ix1 o) = Ideal.sqrt (sumSq (wc W o)) := by
  have e : ∀ k', idx_main_v17 (ix1 o) k' = ix2 o k' := fun k' =>
    funext fun a => Fin.ext (by match a with | ⟨0, _⟩ => rfl | ⟨1, _⟩ => rfl)
  rw [val_main_v18_apply, val_main_v17_apply, val_main_cst_4_apply]
  simp only [Ideal.hostUnary_sqrt_def, Ideal.ofBits_def, Ideal.ofBits_zero_f32, zero_add, e, val_main_v16_apply,
    Ideal.mulf_def, centred_w]
  rfl

/-- The inner product of the centred rows p and o. -/
theorem inner (X : (⟨S262144x256, .f32⟩ : BufTy).Contents (Elt Ideal)) (W : (⟨S256x256, .f32⟩ : BufTy).Contents (Elt Ideal))
    (p : Fin 262144) (o : Fin 256) :
    val_main_v19 (F := Ideal) X W (ix2 p o) = ∑ k, xc X p k * wc W o k := by
  have el : ∀ k, lidx_main_v19 (ix2 p o) k = ix2 p k := fun k =>
    funext fun a => Fin.ext (by match a with | ⟨0, _⟩ => rfl | ⟨1, _⟩ => rfl)
  have er : ∀ k, ridx_main_v19 (ix2 p o) k = ix2 o k := fun k =>
    funext fun a => Fin.ext (by match a with | ⟨0, _⟩ => rfl | ⟨1, _⟩ => rfl)
  rw [val_main_v19_apply]
  simp only [el, er, centred_x, centred_w]

/-- The reference's result at (p, o). -/
theorem result_at (X : (⟨S262144x256, .f32⟩ : BufTy).Contents (Elt Ideal)) (W : (⟨S256x256, .f32⟩ : BufTy).Contents (Elt Ideal))
    (B : (⟨S256, .f32⟩ : BufTy).Contents (Elt Ideal)) (p : Fin 262144) (o : Fin 256) :
    val_main_v28 (F := Ideal) X W B (ix2 p o) = dotThenDivided eps (xc X p) (wc W o) + B (ix1 o) := by
  have e20 : idx_main_v20 (idx_main_v22 (ix2 p o)) = ix1 o :=
    funext fun a => Fin.ext (by match a with | ⟨0, _⟩ => rfl)
  have e26 : idx_main_v26 (idx_main_v27 (ix2 p o)) = ix1 o :=
    funext fun a => Fin.ext (by match a with | ⟨0, _⟩ => rfl)
  rw [val_main_v28_apply, val_main_v25_apply, val_main_call0_v1_apply, val_main_call0_v0_apply, val_main_cst_5_apply,
    val_main_v24_apply, val_main_v23_apply, val_main_v21_apply, val_main_v22_apply, val_main_v20_apply, val_main_v27_apply,
    val_main_v26_apply, inner, length_x X _ p rfl, e20, e26, length_w]
  simp only [Ideal.addf_def, Ideal.maximumf_def, Ideal.hostDivf_def, Ideal.mulf_def, Ideal.ofBits_def]
  rfl

/-- The reference's result is the specification's result array, for arrays of real numbers. -/
theorem result_eq (X : (⟨S262144x256, .f32⟩ : BufTy).Contents (Elt Ideal)) (W : (⟨S256x256, .f32⟩ : BufTy).Contents (Elt Ideal))
    (B : (⟨S256, .f32⟩ : BufTy).Contents (Elt Ideal)) (hX : ∀ i, ∃ r : ℝ, X i = r) (hW : ∀ i, ∃ r : ℝ, W i = r) :
    val_main_v28 (F := Ideal) X W B = result X W B := by
  funext i
  obtain ⟨p, o, rfl⟩ : ∃ (p : Fin 262144) (o : Fin 256), i = ix2 p o := ⟨i 0, i 1, eq_ix2 i⟩
  rw [result_at, result_apply_divided X W B hX hW]

end Cert.RefValue

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.KernelBody.lean ====
/-
  What the kernel body stores, entry by entry, as a function of the three blocks it loads: the [4096, 256] block x of
  the first array, the whole [256, 256] second operand w, and the [256] bias b.

  The body removes each row's mean from x, scales each centred row by the reciprocal square root of the sum of its
  squares, multiplies by w contracting the second axis of both (entry (r, q) is the sum over k of the scaled row r at k
  times w at (q, k)), bounds the product below by ε and adds b at q.
-/
import proofs.«128889_j29291676959209_2_alg».proof.Proof.Gen.KernelIdeal.Skeleton
import proofs.«128889_j29291676959209_2_alg».proof.Proof.LibRowOps
import proofs.«128889_j29291676959209_2_alg».proof.Proof.LibKeepdims
import proofs.«128889_j29291676959209_2_alg».proof.Proof.Spec
import Idealize.ShloMosaic.Lib.ValueIdx
import Idealize.ShloMosaic.PureOps.Ideal.Laws

noncomputable section

open scoped BigOperators

namespace Cert.KernelBody

open Idealize.ShloMosaic Idealize.ShloMosaic.ValueIdx Cert.KernelIdeal Cert.KernelIdeal.Facts₀ Cert.Corr Cert.Spec

theorem rsqrt_apply {s : Shape} {φ : FTy} (v : FVec Ideal s φ) (i : s.Idx) : rsqrt v i = Ideal.rsqrt (v i) := rfl

/-- Row `r` of a block, centred. -/
def blockRow (x : FVec Ideal S4096x256 .f32) (r : Fin 4096) (k : Fin 256) : EReal :=
  centred rowLen (fun r j => x (ix2 r j)) r k

/-- The block with each row's mean removed. -/
def centredBlock (x : FVec Ideal S4096x256 .f32) : FVec Ideal S4096x256 .f32 :=
  subf x (broadcastTo S4096x256
    (divf (shapeCast S4096x1 (multiReduction .add [1] S4096 x 0x00000000#32 reduces_S4096x256_S4096 (.inl rfl) rfl) shapeCasts_S4096_S4096x1)
      (broadcast S4096x1 (Scalar.ofBits (F := Ideal) .f32 0x43800000#32)))
    broadcasts_S4096x1_S4096x256)

/-- The centred block with each row scaled by the reciprocal square root of the sum of its squares. -/
def scaledBlock (x : FVec Ideal S4096x256 .f32) : FVec Ideal S4096x256 .f32 :=
  mulf (centredBlock x) (broadcastTo S4096x256
    (rsqrt (shapeCast S4096x1 (multiReduction .add [1] S4096 (mulf (centredBlock x) (centredBlock x)) 0x00000000#32
      reduces_S4096x256_S4096 (.inl rfl) rfl) shapeCasts_S4096_S4096x1))
    broadcasts_S4096x1_S4096x256)

/-- The stored value in terms of the scaled block. -/
theorem payload_eq (w : FVec Ideal S256x256 .bf16) (x : FVec Ideal S4096x256 .f32) (b : FVec Ideal S256 .f32) :
    Gen.k0_pay1 (F := Ideal) w x b
      = addf (maximumf (matmul dot_S4096x256_S256x256_S4096x256_1_1_0_0_n_n none (truncf .bf16 (scaledBlock x) bitsLt_bf16_f32)
            (shapeCast S256x256 w shapeCasts_S256x256_S256x256) (constant S4096x256 .f32 0x00000000#32))
          (broadcast S4096x256 (Scalar.ofBits (F := Ideal) .f32 0x2EDBE6FF#32)))
        (broadcastTo S4096x256 (shapeCast S1x256 b shapeCasts_S256_S1x256) broadcasts_S1x256_S4096x256) := rfl

theorem centredBlock_apply (x : FVec Ideal S4096x256 .f32) (r : Fin 4096) (k : Fin 256) :
    centredBlock x (ix2 r k) = blockRow x r k := by
  unfold centredBlock
  rw [subf_apply, Keepdims.column_repeat_apply, divf_apply, Keepdims.column_cast_apply, RowOps.sum_over_columns_apply,
    broadcast_apply]
  rfl

theorem scaledBlock_apply (x : FVec Ideal S4096x256 .f32) (r : Fin 4096) (k : Fin 256) :
    scaledBlock x (ix2 r k) = blockRow x r k * Ideal.rsqrt (sumSq (blockRow x r)) := by
  unfold scaledBlock
  rw [mulf_apply, Keepdims.column_repeat_apply, rsqrt_apply, Keepdims.column_cast_apply, RowOps.sum_over_columns_apply,
    centredBlock_apply]
  unfold sumSq
  simp only [mulf_apply, centredBlock_apply]

theorem lhs_row (i : S4096x256.Idx) (c : dot_S4096x256_S256x256_S4096x256_1_1_0_0_n_n.contr.Idx) : (dot_S4096x256_S256x256_S4096x256_1_1_0_0_n_n.lhsIdx i c 0).val = (i 0).val := by
  unfold DotDims.lhsIdx
  rw [dif_neg (show ¬(0 : Fin S4096x256.rank) ∈ dot_S4096x256_S256x256_S4096x256_1_1_0_0_n_n.lhsBatch by decide),
    dif_pos (show (0 : Fin S4096x256.rank) ∈ dot_S4096x256_S256x256_S4096x256_1_1_0_0_n_n.lhsNonContracting by decide)]
  rfl

theorem rhs_row (i : S4096x256.Idx) (c : dot_S4096x256_S256x256_S4096x256_1_1_0_0_n_n.contr.Idx) : (dot_S4096x256_S256x256_S4096x256_1_1_0_0_n_n.rhsIdx i c 0).val = (i 1).val := by
  unfold DotDims.rhsIdx
  rw [dif_neg (show ¬(0 : Fin S256x256.rank) ∈ dot_S4096x256_S256x256_S4096x256_1_1_0_0_n_n.rhsBatch by decide),
    dif_pos (show (0 : Fin S256x256.rank) ∈ dot_S4096x256_S256x256_S4096x256_1_1_0_0_n_n.rhsNonContracting by decide)]
  rfl

/-- The matrix product into a zero accumulator at (r, q): the sum over k of the left operand at (r, k) times the right
    operand at (q, k). -/
theorem product_apply (l : FVec Ideal S4096x256 .bf16) (w : FVec Ideal S256x256 .bf16) (r : Fin 4096) (q : Fin 256) :
    matmul dot_S4096x256_S256x256_S4096x256_1_1_0_0_n_n none l w (constant S4096x256 .f32 0x00000000#32) (ix2 r q) = ∑ k : Fin 256, l (ix2 r k) * w (ix2 q k) := by
  simp only [matmul]
  rw [Ideal.matmul_constant_zero_apply, ← Equiv.sum_comp (contrEquiv1 dot_S4096x256_S256x256_S4096x256_1_1_0_0_n_n 256 rfl rfl).symm]
  refine Finset.sum_congr rfl fun k _ => ?_
  have hk := contrEquiv1_symm_val dot_S4096x256_S256x256_S4096x256_1_1_0_0_n_n 256 rfl rfl k
  have el : dot_S4096x256_S256x256_S4096x256_1_1_0_0_n_n.lhsIdx (ix2 r q) ((contrEquiv1 dot_S4096x256_S256x256_S4096x256_1_1_0_0_n_n 256 rfl rfl).symm k) = ix2 r k := funext fun a => Fin.ext (by
    match a with
    | ⟨0, _⟩ => exact lhs_row _ _
    | ⟨1, _⟩ => exact (dot_S4096x256_S256x256_S4096x256_1_1_0_0_n_n.lhsIdx_val_of_single rfl _ _).trans hk)
  have er : dot_S4096x256_S256x256_S4096x256_1_1_0_0_n_n.rhsIdx (ix2 r q) ((contrEquiv1 dot_S4096x256_S256x256_S4096x256_1_1_0_0_n_n 256 rfl rfl).symm k) = ix2 q k := funext fun a => Fin.ext (by
    match a with
    | ⟨0, _⟩ => exact rhs_row _ _
    | ⟨1, _⟩ => exact (dot_S4096x256_S256x256_S4096x256_1_1_0_0_n_n.rhsIdx_val_of_single rfl _ _).trans hk)
  rw [el, er]

/-- The stored value at (r, q). -/
theorem payload_apply (w : FVec Ideal S256x256 .bf16) (x : FVec Ideal S4096x256 .f32) (b : FVec Ideal S256 .f32)
    (r : Fin 4096) (q : Fin 256) :
    Gen.k0_pay1 (F := Ideal) w x b (ix2 r q)
      = max (∑ k : Fin 256, (blockRow x r k * Ideal.rsqrt (sumSq (blockRow x r))) * w (ix2 q k)) eps + b (ix1 q) := by
  rw [payload_eq, addf_apply, maximumf_apply, broadcast_apply, RowOps.row_repeated_apply, product_apply]
  simp only [truncf_apply, shapeCast_self, scaledBlock_apply]
  rfl

end Cert.KernelBody

end
-- ==== Proof.KernelWeights.lean ====
/-
  The kernel's second operand.  Before the kernel is launched the host computes it from the second argument array W:
  each row of W has its mean removed, and each centred row is scaled by the reciprocal square root of the sum of its
  squares (then rounded to a narrower format, which is the identity on the extended reals).  Read at (o, k) it is the
  centred row o of W at k times the reciprocal length of that row.
-/
import proofs.«128889_j29291676959209_2_alg».proof.Proof.Gen.KernelIdeal.Frame
import proofs.«128889_j29291676959209_2_alg».proof.Proof.LibKeepdims
import proofs.«128889_j29291676959209_2_alg».proof.Proof.Spec
import Idealize.ShloMosaic.Lib.StableHlo.Run
import Idealize.ShloMosaic.Lib.IdealHost

noncomputable section

open scoped BigOperators

namespace Cert.KernelWeights

open Idealize.ShloMosaic Idealize.ShloMosaic.TcCoe Idealize.ShloMosaic.ValueIdx Idealize.SL.Sem Cert.KernelIdeal
  Cert.KernelIdeal.Facts₀ Cert.Corr Cert.Spec

theorem host_rsqrt_apply {s : Shape} {φ : FTy} (v : FVec Ideal s φ) (i : s.Idx) : Host.rsqrt v i = Ideal.rsqrt (v i) := rfl

/-- W with each row's mean removed, as the host operations spell it. -/
def centredW (W : FVec Ideal S256x256 .f32) : FVec Ideal S256x256 .f32 :=
  subf W (broadcastInDim S256x256 ![0, 1] bcast_S256x1_S256x256_0_1
    (Host.divf
      (broadcastInDim S256x1 ![0] bcast_S256_S256x1_0
        (Host.reduceAdd W (constant (F := Ideal) S_ .f32 0x00000000#32) reducesTo_S256x256_S256_d1 h_S_))
      (broadcastInDim S256x1 ![] bcast_S_S256x1 (constant (F := Ideal) S_ .f32 0x43800000#32))))

/-- The centred W with each row scaled by the reciprocal square root of the sum of its squares. -/
def scaledW (W : FVec Ideal S256x256 .f32) : FVec Ideal S256x256 .bf16 :=
  truncf .bf16 (mulf (centredW W) (broadcastInDim S256x256 ![0, 1] bcast_S256x1_S256x256_0_1
    (broadcastInDim S256x1 ![0] bcast_S256_S256x1_0
      (Host.rsqrt (Host.reduceAdd (mulf (centredW W) (centredW W)) (constant (F := Ideal) S_ .f32 0x00000000#32)
        reducesTo_S256x256_S256_d1 h_S_))))) bitsLt_bf16_f32

theorem centredW_apply (W : FVec Ideal S256x256 .f32) (o k : Fin 256) : centredW W (ix2 o k) = wc W o k := by
  unfold centredW
  rw [subf_apply, Keepdims.host_column_repeat_apply, hostDivf_apply, Keepdims.host_column_apply,
    Keepdims.host_sum_over_columns_apply (a := 256) (n := 256) _ _ _ (by decide), broadcastInDim_scalar_apply,
    constant_apply, constant_apply, Ideal.ofBits_zero_f32, zero_add]
  rfl

theorem scaledW_apply (W : FVec Ideal S256x256 .f32) (o k : Fin 256) :
    scaledW W (ix2 o k) = wc W o k * Ideal.rsqrt (sumSq (wc W o)) := by
  unfold scaledW
  rw [truncf_apply, mulf_apply, Keepdims.host_column_repeat_apply, Keepdims.host_column_apply, host_rsqrt_apply,
    Keepdims.host_sum_over_columns_apply (a := 256) (n := 256) _ _ _ (by decide), constant_apply, Ideal.ofBits_zero_f32,
    zero_add, centredW_apply]
  unfold sumSq
  simp only [mulf_apply, centredW_apply]

/-- When the kernel is launched its second operand holds the scaled centred W. -/
theorem operand_eq (m : (ℓ : Loc nD τ sig) → Buf (Elt Ideal) ℓ) (c : Dev nD) :
    (Gen.V m c main_v12 : S256x256.Idx → EReal) = scaledW (m ((c : Thread nD τ).loc main_arg1)) := by
  dsimp only [Gen.V, Gen.hostOps0]
  after_results
  rfl

end Cert.KernelWeights

end
-- ==== Proof.KernelValue.lean ====
/-
  The kernel's result array after the run is the specification's result array.

  The grid has 64 points; at point t the kernel loads rows 4096·t … 4096·t + 4095 of the first array, the whole second
  operand and the whole bias, and writes rows 4096·t … 4096·t + 4095 of the result.  A row of the block is a row of the
  array, so its mean, its centred entries and the sum of their squares are those of the array's row; the block the
  point writes is therefore the specification's result read through the point's rectangle, and the 64 rectangles cover
  the result array.
-/
import proofs.«128889_j29291676959209_2_alg».proof.Proof.Gen.KernelIdeal.Value
import proofs.«128889_j29291676959209_2_alg».proof.Proof.KernelBody
import proofs.«128889_j29291676959209_2_alg».proof.Proof.KernelWeights

noncomputable section

open scoped BigOperators

namespace Cert.KernelValue

open Idealize.ShloMosaic Idealize.ShloMosaic.TcCoe Idealize.ShloMosaic.ValueIdx Idealize.SL.Sem Cert.KernelIdeal
  Cert.KernelIdeal.Gen
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point `t`: the first operand's and the result's at block row `t`, the second
    operand's and the bias's at the origin. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The first operand's block at point `t` is rows 4096·t … of the first argument array. -/
theorem read_x (c : Dev nD) (t : Fin cfg0.N) (y : S4096x256.Idx) (i : S262144x256.Idx)
    (h0 : (i 0).val = t.val * 4096 + (y 0).val) (h1 : (i 1).val = (y 1).val) :
    (iblk m c 0 t : S4096x256.Idx → EReal) y = (m ((c : Thread nD τ).loc main_arg0) : S262144x256.Idx → EReal) i := by
  obtain ⟨e0, e1, -⟩ := block_positions t
  show V m c main_arg0 (((cfg0.win 0).blk t).view.emb y) = _
  rw [V_main_arg0]
  refine congrArg _ (funext fun a => Fin.ext ?_)
  match a with
  | ⟨0, _⟩ => show win0_0.index t (0 : Fin 2) * 4096 + 1 * (y 0).val = (i 0).val; omega
  | ⟨1, _⟩ => show win0_0.index t (1 : Fin 2) * 256 + 1 * (y 1).val = (i 1).val; omega

/-- The second operand's block at every point is the whole scaled centred second argument array. -/
theorem read_w (c : Dev nD) (t : Fin cfg0.N) (y : S256x256.Idx) :
    (iblk m c 1 t : S256x256.Idx → EReal) y = KernelWeights.scaledW (m ((c : Thread nD τ).loc main_arg1)) y := by
  obtain ⟨-, -, e2, e3, -⟩ := block_positions t
  show V m c main_v12 (((cfg0.win 1).blk t).view.emb y) = _
  rw [KernelWeights.operand_eq]
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias's block at every point is the whole third argument array. -/
theorem read_b (c : Dev nD) (t : Fin cfg0.N) (y : S256.Idx) :
    (iblk m c 2 t : S256.Idx → EReal) y = (m ((c : Thread nD τ).loc main_arg2) : S256.Idx → EReal) y := by
  obtain ⟨-, -, -, -, e4, -⟩ := block_positions t
  show V m c main_arg2 (((cfg0.win 2).blk t).view.emb y) = _
  rw [V_main_arg2]
  refine congrArg _ (funext fun a => Fin.ext ?_)
  match a with
  | ⟨0, _⟩ => show win0_2.index t (0 : Fin 1) * 256 + 1 * (y 0).val = (y 0).val; omega

/-- One point's stored value is the specification's result: for a block `xb` that is rows 4096·n₀ … of `X`, the
    scaled centred `W` and the bias `B`, the stored value at (r, q) is the result at (4096·n₀ + r, q). -/
theorem point_value (X : S262144x256.Idx → EReal) (W : S256x256.Idx → EReal) (B : S256.Idx → EReal) (n0 : ℕ)
    (xb : FVec Ideal S4096x256 .f32) (wb : FVec Ideal S256x256 .bf16) (bb : FVec Ideal S256 .f32)
    (hx : ∀ (y : S4096x256.Idx) (i : S262144x256.Idx), (i 0).val = n0 * 4096 + (y 0).val → (i 1).val = (y 1).val → xb y = X i)
    (hw : ∀ y, wb y = KernelWeights.scaledW W y) (hb : ∀ y, bb y = B y)
    (y : S4096x256.Idx) (i : S262144x256.Idx) (h0 : (i 0).val = n0 * 4096 + (y 0).val) (h1 : (i 1).val = (y 1).val) :
    k0_pay1 (F := Ideal) wb xb bb y = Spec.result X W B i := by
  obtain ⟨r, q, rfl⟩ : ∃ (r : Fin 4096) (q : Fin 256), y = ix2 r q := ⟨y 0, y 1, eq_ix2 y⟩
  obtain ⟨p, o, rfl⟩ : ∃ (p : Fin 262144) (o : Fin 256), i = ix2 p o := ⟨i 0, i 1, eq_ix2 i⟩
  obtain rfl : o = q := Fin.ext h1
  have hrow : KernelBody.blockRow xb r = Spec.xc X p := by
    funext k
    show xb (ix2 r k) - Ideal.div (∑ j, xb (ix2 r j)) Spec.rowLen = X (ix2 p k) - Ideal.div (∑ j, X (ix2 p j)) Spec.rowLen
    rw [hx (ix2 r k) (ix2 p k) h0 rfl, Finset.sum_congr rfl fun j _ => hx (ix2 r j) (ix2 p j) h0 rfl]
  rw [KernelBody.payload_apply, Spec.result_apply, hrow, hb]
  unfold Corr.scaledThenDot
  simp only [hw, KernelWeights.scaledW_apply]

/-- What point `t` writes back is the result array read through the point's rectangle. -/
theorem flushed_eq (c : Dev nD) (t : Fin cfg0.N) :
    (dats m 0 c).flushed 3 t = ((cfg0.win 3).blk t).view.read (Elt Ideal)
      (Spec.result (m ((c : Thread nD τ).loc main_arg0)) (m ((c : Thread nD τ).loc main_arg1)) (m ((c : Thread nD τ).loc main_arg2))) := by
  rw [Value.flushed3]
  unfold out0_3
  rw [View.canon_unit_zero hz2]
  simp only [View.ld_unit_zero (S := S4096x256) hz2, View.ld_unit_zero (S := S256x256) hz2, View.ld_unit_zero (S := S256) hz1]
  obtain ⟨-, -, -, -, -, e5, e6⟩ := block_positions t
  funext j
  show k0_pay1 (iblk m c 1 t) (iblk m c 0 t) (iblk m c 2 t) j = Spec.result _ _ _ (((cfg0.win 3).blk t).view.emb j)
  refine point_value _ _ _ t.val (iblk m c 0 t) (iblk m c 1 t) (iblk m c 2 t) (fun y i h0 h1 => read_x m c t y i h0 h1)
    (fun y => read_w m c t y) (fun y => read_b m c t y) j _ ?_ ?_
  · show win0_3.index t (0 : Fin 2) * 4096 + 1 * (j 0).val = t.val * 4096 + (j 0).val; omega
  · show win0_3.index t (1 : Fin 2) * 256 + 1 * (j 1).val = (j 1).val; omega

/-- An entry is in point `t`'s rectangle iff each coordinate is in the rectangle's range on its axis. -/
theorem mem_blk (t : Fin cfg0.N) (i : S262144x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v13).slice (win0_3.rect t)).set ↔ _
  rw [View.set_slice_whole, Rect.mem_set_unit]
  exact Iff.rfl

/-- Every entry (p, q) of the result array is in the rectangle of point p / 4096. -/
theorem cover (i : S262144x256.Idx) : ∃ t : Fin cfg0.N, (cfg0.win 3).flush t = true ∧ i ∈ ((cfg0.win 3).blk t).view.set := by
  have hN : cfg0.N = 64 := N_0
  have hi0 : (i 0).val < 262144 := (i 0).isLt
  have hi1 : (i 1).val < 256 := (i 1).isLt
  have ht : (i 0).val / 4096 < cfg0.N := by rw [hN]; omega
  obtain ⟨-, -, -, -, -, e5, e6⟩ := block_positions ⟨(i 0).val / 4096, ht⟩
  have e5' : win0_3.index ⟨(i 0).val / 4096, ht⟩ (0 : Fin 2) = (i 0).val / 4096 := e5
  refine ⟨⟨(i 0).val / 4096, ht⟩, flush0_3 _, ?_⟩
  rw [mem_blk]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    omega
  | ⟨1, _⟩ =>
    show win0_3.index ⟨(i 0).val / 4096, ht⟩ (1 : Fin 2) * 256 ≤ (i 1).val
      ∧ (i 1).val < win0_3.index ⟨(i 0).val / 4096, ht⟩ (1 : Fin 2) * 256 + 256
    omega

/-- The result array after the run. -/
theorem final (c : Dev nD) : (dats m 0 c).arrAt 3 cfg0.N
    = Spec.result (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result array ends at the specification's result of the argument arrays, the arguments
    unchanged. -/
theorem run : θ_run defs (onTc (τ := τ) (main (F := Ideal))) ⟨m, fun _ => 0, ρ⟩ fun r => ∀ c : Dev nD,
      r.2.mem ((c : Thread nD τ).loc main_v13)
        = Spec.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelValue

end
-- ==== Proof.lean ====
/-
  The kernel against its reference, on the extended reals.

  Both programs take an array X of 262144 rows of 256 numbers, an array W of 256 rows of 256 numbers and a bias of 256
  numbers, and produce, for row p of X and row o of W, the correlation of the two rows — each with its mean removed —
  bounded below by a constant ε > 0, plus the bias of o.

  The kernel removes the means, divides each centred row by its length (multiplying by the reciprocal square root of the
  sum of its squares) and then takes inner products: W's rows once, before the launch; X's rows block by block, 4096 rows
  per grid point, inside the body.  The reference takes the inner products of the centred rows first and divides by the
  product of the two lengths afterwards.  For real inputs the two agree: where both lengths are positive they are one
  real number; where a length is zero the centred row is zero, the kernel's value is a sum of zeros and the reference's
  is 0 / 0, which reads −∞, and the lower bound ε makes both ε.  That a row of reals stays real after its mean is removed
  is where the precondition (every input finite) is used.

  The three frames are the generated ones (the reference's is its generated run with the result dropped); the kernel's
  idealization rewrote nothing, so that claim is trivial; the value claim joins the kernel's run
  (Proof/KernelValue.lean) and the reference's generated run read entry by entry (Proof/RefValue.lean) at the
  specification's result array (Proof/Spec.lean).
-/
import proofs.«128889_j29291676959209_2_alg».proof.Defs
import proofs.«128889_j29291676959209_2_alg».proof.Proof.Gen.Kernel
import proofs.«128889_j29291676959209_2_alg».proof.Proof.Gen.Kernel.Skeleton
import proofs.«128889_j29291676959209_2_alg».proof.Proof.Gen.Kernel.Launch
import proofs.«128889_j29291676959209_2_alg».proof.Proof.Gen.Kernel.Points
import proofs.«128889_j29291676959209_2_alg».proof.Proof.Gen.Kernel.Frame
import proofs.«128889_j29291676959209_2_alg».proof.Proof.Gen.KernelIdeal
import proofs.«128889_j29291676959209_2_alg».proof.Proof.Gen.KernelIdeal.Skeleton
import proofs.«128889_j29291676959209_2_alg».proof.Proof.Gen.KernelIdeal.Launch
import proofs.«128889_j29291676959209_2_alg».proof.Proof.Gen.KernelIdeal.Points
import proofs.«128889_j29291676959209_2_alg».proof.Proof.Gen.KernelIdeal.Frame
import proofs.«128889_j29291676959209_2_alg».proof.Proof.Gen.ReferenceIdeal
import proofs.«128889_j29291676959209_2_alg».proof.Proof.Gen.Pre_finite_inputs
import proofs.«128889_j29291676959209_2_alg».proof.Proof.Gen.KernelIdeal.Value
import proofs.«128889_j29291676959209_2_alg».proof.Proof.Gen.ReferenceIdeal.Run
import proofs.«128889_j29291676959209_2_alg».proof.Proof.Gen.ReferenceIdeal.Read
import proofs.«128889_j29291676959209_2_alg».proof.Proof.Finite
import proofs.«128889_j29291676959209_2_alg».proof.Proof.RefValue
import proofs.«128889_j29291676959209_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's both end at the
    specification's result of those arguments: the kernel's by its run, the reference's by its run read entry by entry
    and the law that joins the two arrangements, which holds because the arguments are arrays of real numbers. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW⟩ := Cert.Finite.entries_real _ _ _ (hpre c)
  rw [(hagree c).1, (hagree c).2.1, (hagree c).2.2]
  exact (Cert.ReferenceIdeal.Read.val_main_v28_eq _ _ _).trans (Cert.RefValue.result_eq _ _ _ hX hW)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
